-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S4000x128 : Shape := ⟨2, ![4000, 128]⟩
abbrev S4000x2 : Shape := ⟨2, ![4000, 2]⟩
abbrev S4000x1 : Shape := ⟨2, ![4000, 1]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 67
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x1, .f32⟩
  | .hbm, ⟨32, _⟩ => ⟨S100000x2, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .bf16⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S1x40, .f32⟩
  | .hbm, ⟨66, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x2, .f32⟩
  | .local _ .vmem, ⟨3, _⟩ => ⟨S4000x2, .f32⟩
  | .local _ .vmem, ⟨4, _⟩ => ⟨S128x128, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x2, .f32⟩
  | .local _ .vmem, ⟨10, _⟩ => ⟨S4000x2, .f32⟩
  | .local _ .vmem, ⟨11, _⟩ => ⟨S1x128, .f32⟩
  | .local _ .vmem, ⟨12, _⟩ => ⟨S128x128, .f32⟩
  | .local _ .vmem, ⟨13, _⟩ => ⟨S4000x128, .bf16⟩
  | .local _ .vmem, ⟨14, _⟩ => ⟨S4000x128, .bf16⟩
  | .local _ .vmem, ⟨15, _⟩ => ⟨S4000x128, .f32⟩
  | .local _ .vmem, ⟨16, _⟩ => ⟨S4000x128, .f32⟩
  | .local _ .vmem, ⟨17, _⟩ => ⟨S4000x2, .f32⟩
  | .local _ .vmem, ⟨18, _⟩ => ⟨S4000x2, .f32⟩
  | .local _ .vmem, ⟨19, _⟩ => ⟨S1x128, .f32⟩
  | .local _ .vmem, ⟨20, _⟩ => ⟨S128x40, .f32⟩
  | .local _ .vmem, ⟨21, _⟩ => ⟨S1x40, .f32⟩
  | .local _ .vmem, ⟨22, _⟩ => ⟨S4000x40, .f32⟩
  | .local _ .vmem, ⟨23, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  inb_S4000x128_S4000x128_0_0 : ∀ a, (![0, 0] : Fin 2 → Nat) a + S4000x128.size a ≤ S4000x128.size a
  h_S4000x128 : 0 < S4000x128.numel
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  slices_S4000x2_o0_1_S4000x1 : S4000x2.Slices ![0, 1] S4000x1
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x2.size a ≤ S100000x2.size a
  hwx0_1 : ∀ i : grid0.Coords, EltTy.bits .f32 = 32 ∨ (Rect.block (s := S100000x2) S4000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S100000x2.size a
  hwx1_1 : ∀ i : grid1.Coords, EltTy.bits .f32 = 32 ∨ (Rect.block (s := S100000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x2.size a ≤ S100000x2.size a
  hwx2_1 : ∀ i : grid2.Coords, EltTy.bits .f32 = 32 ∨ (Rect.block (s := S100000x2) S4000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x40.size a ≤ S100000x40.size a
  hwx2_5 : ∀ i : grid2.Coords, EltTy.bits .f32 = 32 ∨ (Rect.block (s := S100000x40) S4000x40.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S4000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S4000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x40, .f32⟩
  | .hbm, ⟨80, _⟩ => ⟨S1x40, .f32⟩
  | .hbm, ⟨81, _⟩ => ⟨S100000x40, .f32⟩
  | .hbm, ⟨82, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel program's run with its RESULT named: every weakly fair execution of the program ends, without a
  fault, with the result array holding what the last of the three tiled stages leaves in it — the contents `W6` of the
  chain of boundary contents, read at the result's buffer — and with the argument arrays as launched.  The run is the
  same chain of three host stretches and three tiled regions that gives the frame; only the postcondition keeps one
  more buffer.
-/
import proofs.«107097_j87892210745352_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: the result array ends at the last boundary's contents, the arguments as launched. -/
theorem run : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.Layers.lean ====
/-
  The three dense stages of a two-layer graph convolution with a final linear layer, entry by entry, over the
  extended reals.  Rows are nodes; `no` and `ni` are one-column arrays holding, per node, the reciprocal square roots
  of its clamped out- and in-degree.

  * `lin0 x no w`      : entry (r, c) is  Σ_k (x(r,k) · no(r)) · w(k,c)
  * `lin1 a no ni b w` : entry (r, c) is  Σ_k (max(a(r,k) · ni(r) + b(k), 0) · no(r)) · w(k,c)
  * `lin2 a ni b w bf` : entry (r, c) is  (Σ_k (a(r,k) · ni(r) + b(k)) · w(k,c)) + bf(c)

  Each is stated for any number of rows, so the same definition reads a block of rows and the whole array, and
  an entry of a stage depends only on its own row of the row-indexed operands (`*_rows`): that is what lets a
  tiling by row blocks be put back together.  `net` chains the three stages through an aggregation `agg` of whole
  arrays that is left opaque.
-/
import Idealize.ShloMosaic.PureOps.Ideal.Laws
import Idealize.ShloMosaic.Lib.ValueIdx

noncomputable section

namespace Cert.Layers

open Idealize.ShloMosaic Idealize.ShloMosaic.ValueIdx
open scoped BigOperators

variable {A A' K B : ℕ}

/-- Column `j` of a two-column array, as a one-column array. -/
def colOf (j : Fin 2) (nrm : FVec Ideal ⟨2, ![A, 2]⟩ .f32) : FVec Ideal ⟨2, ![A, 1]⟩ .f32 :=
  fun i => nrm (ix2 (i 0) j)

/-- Rows scaled by `no`, then the matrix product with `w`. -/
def lin0 (x : FVec Ideal ⟨2, ![A, K]⟩ .f32) (no : FVec Ideal ⟨2, ![A, 1]⟩ .f32) (w : FVec Ideal ⟨2, ![K, B]⟩ .f32) :
    FVec Ideal ⟨2, ![A, B]⟩ .f32 :=
  fun i => ∑ k : Fin K, (x (ix2 (i 0) k) * no (ix2 (i 0) (0 : Fin 1))) * w (ix2 k (i 1))

/-- Rows scaled by `ni`, the bias row added, the maximum with zero, rows scaled by `no`, then the product with `w`. -/
def lin1 (a : FVec Ideal ⟨2, ![A, K]⟩ .f32) (no ni : FVec Ideal ⟨2, ![A, 1]⟩ .f32) (b : FVec Ideal ⟨2, ![1, K]⟩ .f32)
    (w : FVec Ideal ⟨2, ![K, B]⟩ .f32) : FVec Ideal ⟨2, ![A, B]⟩ .f32 :=
  fun i => ∑ k : Fin K, (max (a (ix2 (i 0) k) * ni (ix2 (i 0) (0 : Fin 1)) + b (ix2 (0 : Fin 1) k))
      (Ideal.ofBits .f32 0x00000000#32) * no (ix2 (i 0) (0 : Fin 1))) * w (ix2 k (i 1))

/-- Rows scaled by `ni`, the bias row added, the product with `w`, then the second bias row added. -/
def lin2 (a : FVec Ideal ⟨2, ![A, K]⟩ .f32) (ni : FVec Ideal ⟨2, ![A, 1]⟩ .f32) (b : FVec Ideal ⟨2, ![1, K]⟩ .f32)
    (w : FVec Ideal ⟨2, ![K, B]⟩ .f32) (bf : FVec Ideal ⟨2, ![1, B]⟩ .f32) : FVec Ideal ⟨2, ![A, B]⟩ .f32 :=
  fun i => (∑ k : Fin K, (a (ix2 (i 0) k) * ni (ix2 (i 0) (0 : Fin 1)) + b (ix2 (0 : Fin 1) k)) * w (ix2 k (i 1)))
    + bf (ix2 (0 : Fin 1) (i 1))

theorem lin0_apply (x : FVec Ideal ⟨2, ![A, K]⟩ .f32) (no : FVec Ideal ⟨2, ![A, 1]⟩ .f32) (w : FVec Ideal ⟨2, ![K, B]⟩ .f32)
    (r : Fin A) (c : Fin B) :
    lin0 x no w (ix2 r c) = ∑ k : Fin K, (x (ix2 r k) * no (ix2 r (0 : Fin 1))) * w (ix2 k c) := rfl

theorem lin1_apply (a : FVec Ideal ⟨2, ![A, K]⟩ .f32) (no ni : FVec Ideal ⟨2, ![A, 1]⟩ .f32) (b : FVec Ideal ⟨2, ![1, K]⟩ .f32)
    (w : FVec Ideal ⟨2, ![K, B]⟩ .f32) (r : Fin A) (c : Fin B) :
    lin1 a no ni b w (ix2 r c) = ∑ k : Fin K, (max (a (ix2 r k) * ni (ix2 r (0 : Fin 1)) + b (ix2 (0 : Fin 1) k))
      (Ideal.ofBits .f32 0x00000000#32) * no (ix2 r (0 : Fin 1))) * w (ix2 k c) := rfl

theorem lin2_apply (a : FVec Ideal ⟨2, ![A, K]⟩ .f32) (ni : FVec Ideal ⟨2, ![A, 1]⟩ .f32) (b : FVec Ideal ⟨2, ![1, K]⟩ .f32)
    (w : FVec Ideal ⟨2, ![K, B]⟩ .f32) (bf : FVec Ideal ⟨2, ![1, B]⟩ .f32) (r : Fin A) (c : Fin B) :
    lin2 a ni b w bf (ix2 r c) = (∑ k : Fin K, (a (ix2 r k) * ni (ix2 r (0 : Fin 1)) + b (ix2 (0 : Fin 1) k)) * w (ix2 k c))
      + bf (ix2 (0 : Fin 1) c) := rfl

/-- An entry of `lin0` in row `p` of an `A'`-row array equals the entry in row `r` of an `A`-row array when row `p` of each
    row-indexed operand of the first is row `r` of the second's. -/
theorem lin0_rows (x : FVec Ideal ⟨2, ![A, K]⟩ .f32) (no : FVec Ideal ⟨2, ![A, 1]⟩ .f32)
    (x' : FVec Ideal ⟨2, ![A', K]⟩ .f32) (no' : FVec Ideal ⟨2, ![A', 1]⟩ .f32) (w : FVec Ideal ⟨2, ![K, B]⟩ .f32)
    (p : Fin A') (r : Fin A) (c : Fin B)
    (hx : ∀ k : Fin K, x' (ix2 p k) = x (ix2 r k)) (hno : no' (ix2 p (0 : Fin 1)) = no (ix2 r (0 : Fin 1))) :
    lin0 x' no' w (ix2 p c) = lin0 x no w (ix2 r c) := by
  rw [lin0_apply, lin0_apply, hno]
  exact Finset.sum_congr rfl fun k _ => by rw [hx k]

theorem lin1_rows (a : FVec Ideal ⟨2, ![A, K]⟩ .f32) (no ni : FVec Ideal ⟨2, ![A, 1]⟩ .f32)
    (a' : FVec Ideal ⟨2, ![A', K]⟩ .f32) (no' ni' : FVec Ideal ⟨2, ![A', 1]⟩ .f32) (b : FVec Ideal ⟨2, ![1, K]⟩ .f32)
    (w : FVec Ideal ⟨2, ![K, B]⟩ .f32) (p : Fin A') (r : Fin A) (c : Fin B)
    (ha : ∀ k : Fin K, a' (ix2 p k) = a (ix2 r k)) (hno : no' (ix2 p (0 : Fin 1)) = no (ix2 r (0 : Fin 1)))
    (hni : ni' (ix2 p (0 : Fin 1)) = ni (ix2 r (0 : Fin 1))) :
    lin1 a' no' ni' b w (ix2 p c) = lin1 a no ni b w (ix2 r c) := by
  rw [lin1_apply, lin1_apply, hno, hni]
  exact Finset.sum_congr rfl fun k _ => by rw [ha k]

theorem lin2_rows (a : FVec Ideal ⟨2, ![A, K]⟩ .f32) (ni : FVec Ideal ⟨2, ![A, 1]⟩ .f32)
    (a' : FVec Ideal ⟨2, ![A', K]⟩ .f32) (ni' : FVec Ideal ⟨2, ![A', 1]⟩ .f32) (b : FVec Ideal ⟨2, ![1, K]⟩ .f32)
    (w : FVec Ideal ⟨2, ![K, B]⟩ .f32) (bf : FVec Ideal ⟨2, ![1, B]⟩ .f32) (p : Fin A') (r : Fin A) (c : Fin B)
    (ha : ∀ k : Fin K, a' (ix2 p k) = a (ix2 r k)) (hni : ni' (ix2 p (0 : Fin 1)) = ni (ix2 r (0 : Fin 1))) :
    lin2 a' ni' b w bf (ix2 p c) = lin2 a ni b w bf (ix2 r c) := by
  rw [lin2_apply, lin2_apply, hni]
  exact congrArg (· + bf (ix2 (0 : Fin 1) c)) (Finset.sum_congr rfl fun k _ => by rw [ha k])

/-- The whole network: the three dense stages chained through an aggregation of whole arrays. -/
def net {N H C : ℕ} (agg : FVec Ideal ⟨2, ![N, H]⟩ .f32 → FVec Ideal ⟨2, ![N, H]⟩ .f32)
    (no ni : FVec Ideal ⟨2, ![N, 1]⟩ .f32) (x : FVec Ideal ⟨2, ![N, H]⟩ .f32) (w1 : FVec Ideal ⟨2, ![H, H]⟩ .f32)
    (b1 : FVec Ideal ⟨2, ![1, H]⟩ .f32) (w2 : FVec Ideal ⟨2, ![H, H]⟩ .f32) (b2 : FVec Ideal ⟨2, ![1, H]⟩ .f32)
    (wfc : FVec Ideal ⟨2, ![H, C]⟩ .f32) (bfc : FVec Ideal ⟨2, ![1, C]⟩ .f32) : FVec Ideal ⟨2, ![N, C]⟩ .f32 :=
  lin2 (agg (lin1 (agg (lin0 x no w1)) no ni b1 w2)) ni b2 wfc bfc

end Cert.Layers

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«107097_j87892210745352_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibColumns.lean ====
/-
  Column ranges of a two-axis array, read at an entry.

  Taking `W` consecutive columns starting at column `o` of an `[R, C]` array — as a unit-stride slice of a value,
  or as a load through the unit-stride rectangle at offsets `(0, o)` — gives an array whose entry `(p, q)` is the
  original entry `(p, o + q)`; and that rectangle places its own entry `(p, q)` at `(p, o + q)`.  Generic in the
  extents, the offset and the entries' type.
-/
import Idealize.ShloMosaic.Lib.Pipeline.Value
import Idealize.ShloMosaic.Lib.ValueIdx

noncomputable section

namespace Cert.LibColumns

open Idealize.ShloMosaic Idealize.ShloMosaic.ValueIdx

variable {α : Type}

/-- A slice of `W` columns from column `o` (all rows) at `(p, q)` is the operand at `(p, o + q)`. -/
theorem slice_cols {R R' C W : Nat} (o : Nat) (x : (⟨2, ![R, C]⟩ : Shape).Idx → α)
    (h : (⟨2, ![R, C]⟩ : Shape).Slices ![0, o] ⟨2, ![R', W]⟩) (p : Fin R') (q : Fin W) (p' : Fin R) (q' : Fin C)
    (hp : p'.val = p.val) (hq : q'.val = o + q.val) :
    extractStridedSlice ⟨2, ![R', W]⟩ ![0, o] x h (ix2 p q) = x (ix2 p' q') :=
  extractStridedSlice_apply ![0, o] x h (ix2 p q) (ix2 p' q') fun a => by
    match a with
    | ⟨0, _⟩ => show p'.val = 0 + p.val; omega
    | ⟨1, _⟩ => exact hq

/-- The rectangle of `R'` rows and `W` columns at offsets `(0, o)` places its entry `(p, q)` at `(p, o + q)`. -/
theorem idx_cols {R R' C W : Nat} (o : Nat)
    (inb : ∀ a, (![0, o] : Fin 2 → Nat) a + (![R', W] : Fin 2 → Nat) a ≤ (⟨2, ![R, C]⟩ : Shape).size a)
    (p : Fin R') (q : Fin W) (p' : Fin R) (q' : Fin C) (hp : p'.val = p.val) (hq : q'.val = o + q.val) :
    (Rect.unit (s := ⟨2, ![R, C]⟩) ![0, o] ![R', W] inb).idx (ix2 p q) = ix2 p' q' :=
  funext fun a => Fin.ext (by
    match a with
    | ⟨0, _⟩ => show 0 + 1 * p.val = p'.val; omega
    | ⟨1, _⟩ => show o + 1 * q.val = q'.val; omega)

/-- A load through that rectangle at `(p, q)` reads the contents at `(p, o + q)`. -/
theorem ld_cols {Val : EltTy → Type} {e : EltTy} {R R' C W : Nat} (o : Nat) (X : (⟨2, ![R, C]⟩ : Shape).Idx → Val e)
    (inb : ∀ a, (![0, o] : Fin 2 → Nat) a + (![R', W] : Fin 2 → Nat) a ≤ (⟨2, ![R, C]⟩ : Shape).size a)
    (p : Fin R') (q : Fin W) (p' : Fin R) (q' : Fin C) (hp : p'.val = p.val) (hq : q'.val = o + q.val) :
    View.ld X (Rect.unit (s := ⟨2, ![R, C]⟩) ![0, o] ![R', W] inb) (ix2 p q) = X (ix2 p' q') :=
  congrArg X (idx_cols o inb p q p' q' hp hq)

end Cert.LibColumns

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Tiles.lean ====
/-
  One block of each tiled stage, entry by entry.  A stage's body reads a block of 4000 rows of the row-indexed
  operands (the features, and the two-column array of degree factors, of which it takes column 0 or 1 and spreads it
  along the lanes), the bias rows and the weight matrix whole, and computes with them exactly the stage's function
  `lin0`, `lin1` or `lin2` of those 4000 rows: a cast to the same shape and a change of float format are the
  identity over the extended reals, a one-column slice spread along the lanes reads the column's entry of the row, a
  one-row array spread down the rows reads the row's entry of the column, and a matrix product into the zero
  accumulator is the plain sum over the contracted axis.
-/
import proofs.«107097_j87892210745352_2_alg».proof.Proof.Gen.KernelIdeal.Skeleton
import proofs.«107097_j87892210745352_2_alg».proof.Proof.Layers
import proofs.«107097_j87892210745352_2_alg».proof.Proof.LibPlainDotFormats
import proofs.«107097_j87892210745352_2_alg».proof.Proof.LibColumns
import proofs.«107097_j87892210745352_2_alg».proof.Proof.LibKeepdims
import proofs.«107097_j87892210745352_2_alg».proof.Proof.LibRowLayout
import Idealize.ShloMosaic.Lib.ValueLayout

noncomputable section

namespace Cert.Tiles

open Idealize.ShloMosaic Idealize.ShloMosaic.ValueIdx Cert.KernelIdeal Cert.KernelIdeal.Gen Cert.Layers
open scoped BigOperators

open Cert.LibPlainDot

/-- The dimension numbers of the [4000,128] × [128,128] product are those of a plain matrix product. -/
theorem plain128 : Plain dot_S4000x128_S128x128_S4000x128_1_0_0_1_n_n := ⟨rfl, rfl, rfl, rfl, rfl, rfl⟩
/-- The dimension numbers of the [4000,128] × [128,40] product are those of a plain matrix product. -/
theorem plain40 : Plain dot_S4000x128_S128x40_S4000x40_1_0_0_1_n_n := ⟨rfl, rfl, rfl, rfl, rfl, rfl⟩

/-- Column `c` of the two-column block, taken as a one-column slice and spread across 128 columns, reads at
    `(p, q)` the block's entry `(p, c)`. -/
theorem col_read (v0 : Vec Ideal S4000x2 .f32) (o : Nat) (c : Fin 2) (hc : c.val = o)
    (hs : S4000x2.ShapeCasts S4000x2) (hsl : S4000x2.Slices ![0, o] S4000x1) (hb : S4000x1.Broadcasts S4000x128)
    (p : Fin 4000) (q : Fin 128) :
    broadcastTo S4000x128 (extractStridedSlice S4000x1 ![0, o] (shapeCast S4000x2 v0 hs) hsl) hb (ix2 p q)
      = v0 (ix2 p c) := by
  rw [shapeCast_self]
  refine (Cert.LibKeepdims.broadcastTo_a1_ab_apply _ hb p q).trans ?_
  exact Cert.LibColumns.slice_cols o v0 hsl p (0 : Fin 1) p c rfl (by rw [hc]; rfl)

/-- A one-row array spread over 4000 rows reads at `(p, q)` the row's entry `q`. -/
theorem row_read {b : Nat} (v : Vec Ideal ⟨2, ![1, b]⟩ .f32) (hs : (⟨2, ![1, b]⟩ : Shape).ShapeCasts ⟨2, ![1, b]⟩)
    (hb : (⟨2, ![1, b]⟩ : Shape).Broadcasts ⟨2, ![4000, b]⟩) (p : Fin 4000) (q : Fin b) :
    broadcastTo ⟨2, ![4000, b]⟩ (shapeCast ⟨2, ![1, b]⟩ v hs) hb (ix2 p q) = v (ix2 (0 : Fin 1) q) := by
  rw [shapeCast_self]
  exact Cert.LibRowLayout.broadcastTo_1b_ab_apply v hb p q

/-- First stage: entry `(p, q)` is `Σ_k (x(p,k) · no(p)) · w(k,q)`; rounding to the narrower format is the identity
    over the extended reals, and the product into the zero accumulator is the plain sum. -/
theorem tile0 (v0 : Vec Ideal S4000x2 .f32) (v3 : Vec Ideal S4000x128 .f32) (v7 : Vec Ideal S128x128 .f32) :
    k0_pay1 (F := Ideal) v0 v3 v7 = lin0 v3 (colOf 0 v0) v7 := by
  funext i
  obtain ⟨p, q, rfl⟩ : ∃ (p : Fin 4000) (q : Fin 128), i = ix2 p q := ⟨i 0, i 1, eq_ix2 i⟩
  rw [lin0_apply]
  unfold k0_pay1
  refine (plain128.matmul_zero_apply_formats none _ _ p q).trans ?_
  refine Finset.sum_congr rfl fun k _ => ?_
  refine congrArg (· * v7 (ix2 k q)) ?_
  refine congrArg (v3 (ix2 p k) * ·) ?_
  exact col_read v0 0 0 rfl _ _ _ p k

/-- Second stage: entry `(p, q)` is `Σ_k (max(a(p,k) · ni(p) + b(k), 0) · no(p)) · w(k,q)`. -/
theorem tile1 (v0 : Vec Ideal S4000x2 .f32) (v4 : Vec Ideal S4000x128 .f32) (v8 : Vec Ideal S1x128 .f32)
    (v17 : Vec Ideal S128x128 .f32) :
    k1_pay1 (F := Ideal) v0 v4 v8 v17 = lin1 v4 (colOf 0 v0) (colOf 1 v0) v8 v17 := by
  funext i
  obtain ⟨p, q, rfl⟩ : ∃ (p : Fin 4000) (q : Fin 128), i = ix2 p q := ⟨i 0, i 1, eq_ix2 i⟩
  rw [lin1_apply]
  unfold k1_pay1
  refine (plain128.matmul_zero_apply_formats none _ _ p q).trans ?_
  refine Finset.sum_congr rfl fun k _ => ?_
  refine congrArg (· * v17 (ix2 k q)) ?_
  have h1 := col_read v0 1 1 rfl shapeCasts_S4000x2_S4000x2 slices_S4000x2_o0_1_S4000x1
    broadcasts_S4000x1_S4000x128 p k
  have h0 := col_read v0 0 0 rfl shapeCasts_S4000x2_S4000x2 slices_S4000x2_o0_0_S4000x1
    broadcasts_S4000x1_S4000x128 p k
  have hr := row_read v8 shapeCasts_S1x128_S1x128 broadcasts_S1x128_S4000x128 p k
  rw [truncf_apply, mulf_apply, maximumf_apply, addf_apply, mulf_apply, broadcast_apply, shapeCast_self v4, h1, h0, hr]
  rfl

/-- Third stage: entry `(p, q)` is `(Σ_k (a(p,k) · ni(p) + b(k)) · w(k,q)) + bf(q)`. -/
theorem tile2 (v0 : Vec Ideal S4000x2 .f32) (v3 : Vec Ideal S4000x128 .f32) (v7 : Vec Ideal S1x128 .f32)
    (v12 : Vec Ideal S128x40 .f32) (v15 : Vec Ideal S1x40 .f32) :
    k2_pay1 (F := Ideal) v0 v3 v7 v12 v15 = lin2 v3 (colOf 1 v0) v7 v12 v15 := by
  funext i
  obtain ⟨p, q, rfl⟩ : ∃ (p : Fin 4000) (q : Fin 40), i = ix2 p q := ⟨i 0, i 1, eq_ix2 i⟩
  rw [lin2_apply]
  unfold k2_pay1
  refine (addf_apply _ _ _).trans ?_
  refine congrArg₂ (· + ·) ?_ (row_read v15 shapeCasts_S1x40_S1x40 broadcasts_S1x40_S4000x40 p q)
  refine (plain40.matmul_zero_apply_formats none _ _ p q).trans ?_
  refine Finset.sum_congr rfl fun k _ => ?_
  refine congrArg (· * v12 (ix2 k q)) ?_
  have h1 := col_read v0 1 1 rfl shapeCasts_S4000x2_S4000x2 slices_S4000x2_o0_1_S4000x1
    broadcasts_S4000x1_S4000x128 p k
  have hr := row_read v7 shapeCasts_S1x128_S1x128 broadcasts_S1x128_S4000x128 p k
  rw [truncf_apply, addf_apply, mulf_apply, shapeCast_self v3, h1, hr]
  rfl

end Cert.Tiles

end
-- ==== Proof.Stage0.lean ====
/-
  The first tiled stage as one function of whole arrays.  The stage runs over 25 blocks of 4000 consecutive rows; at
  block t it reads rows 4000·t … 4000·t+3999 of the features and of the two-column array of degree factors, the whole
  weight matrix, and writes the same rows of its result.  An entry of `lin0` depends only on its own row of the
  row-indexed operands, so what block t writes is block t of `lin0` of the whole arrays; the 25 blocks tile the
  rows, so the result array ends holding `lin0` of the arrays the stage found.
-/
import proofs.«107097_j87892210745352_2_alg».proof.Proof.Gen.KernelIdeal.Frame
import proofs.«107097_j87892210745352_2_alg».proof.Proof.Tiles
import Idealize.ShloMosaic.Lib.Pipeline.Value

set_option maxRecDepth 16384

noncomputable section

namespace Cert.KernelIdeal.Stage0

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every point: the row-blocked windows sit at block (t, 0), the weight matrix's
    at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t`. -/
def row (t : Fin cfg0.N) (p : Fin 4000) : Fin 100000 :=
  ⟨t.val * 4000 + p.val, by have h : t.val < 25 := N_0 ▸ t.isLt; have := p.isLt; omega⟩

theorem emb_x (t : Fin cfg0.N) (p : Fin 4000) (k : Fin 128) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

theorem emb_n (t : Fin cfg0.N) (p : Fin 4000) (j : Fin 2) :
    ((cfg0.win 1).blk t).view.emb (ix2 p j) = ix2 (row t p) j := by
  obtain ⟨-, -, e0, e1, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 2 + 1 * j.val = j.val; omega

theorem emb_w (t : Fin cfg0.N) (y : S128x128.Idx) : ((cfg0.win 2).blk t).view.emb y = y := by
  obtain ⟨-, -, -, -, e0, e1, -⟩ := idx_facts t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem emb_o (t : Fin cfg0.N) (p : Fin 4000) (q : Fin 128) :
    ((cfg0.win 3).blk t).view.emb (ix2 p q) = ix2 (row t p) q := by
  obtain ⟨-, -, -, -, -, -, e0, e1⟩ := idx_facts t
  funext a; apply Fin.ext
  match a with
  | ⟨0, _⟩ => show win0_3.index t (0 : Fin 2) * 4000 + 1 * p.val = t.val * 4000 + p.val; omega
  | ⟨1, _⟩ => show win0_3.index t (1 : Fin 2) * 128 + 1 * q.val = q.val; omega

/-- The weight matrix's block is the whole matrix. -/
theorem iblk_w (c : Dev nD) (t : Fin cfg0.N) : iblk0 V c 2 t = V c main_arg2 := by
  funext y
  show V c main_arg2 (((cfg0.win 2).blk t).view.emb y) = V c main_arg2 y
  rw [emb_w]

/-- What point `t` writes back is block `t` of `lin0` of the arrays the stage found. -/
theorem flushed_eq (c : Dev nD) (t : Fin cfg0.N) :
    (dat0 V c).flushed 3 t = ((cfg0.win 3).blk t).view.read (Elt Ideal)
      (lin0 (V c main_arg0) (colOf 0 (V c main_v19)) (V c main_arg2)) := by
  show (cfg0.win 3).cut (grid0.coords t) ((dat0 V c).after 3 t) = _
  rw [after0_3]
  unfold out0_3
  rw [View.canon_unit_zero hz]
  simp only [View.ld_unit_zero (S := S4000x128) hz, View.ld_unit_zero (S := S4000x2) hz, View.ld_unit_zero (S := S128x128) hz]
  rw [Cert.Tiles.tile0, iblk_w]
  funext j
  obtain ⟨p, q, rfl⟩ : ∃ (p : Fin 4000) (q : Fin 128), j = ix2 p q := ⟨j 0, j 1, eq_ix2 j⟩
  show lin0 (iblk0 V c 0 t) (colOf 0 (iblk0 V c 1 t)) (V c main_arg2) (ix2 p q)
    = lin0 (V c main_arg0) (colOf 0 (V c main_v19)) (V c main_arg2) (((cfg0.win 3).blk t).view.emb (ix2 p q))
  rw [emb_o]
  refine lin0_rows _ _ _ _ _ p (row t p) q (fun k => ?_) ?_
  · show V c main_arg0 (((cfg0.win 0).blk t).view.emb (ix2 p k)) = _
    rw [emb_x]
  · show V c main_v19 (((cfg0.win 1).blk t).view.emb (ix2 p (0 : Fin 2))) = _
    rw [emb_n]; rfl

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v20).slice (win0_3.rect t)).set ↔ _
  rw [View.set_slice_whole, Rect.mem_set_unit]
  exact Iff.rfl

/-- The 25 row blocks tile the result array: row r is in block r / 4000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, e0, e1⟩ := idx_facts ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    have e0' : win0_3.index ⟨(i 0).val / 4000, ht⟩ (0 : Fin 2) = (i 0).val / 4000 := e0
    omega
  | ⟨1, _⟩ =>
    show win0_3.index ⟨(i 0).val / 4000, ht⟩ (1 : Fin 2) * 128 ≤ (i 1).val
      ∧ (i 1).val < win0_3.index ⟨(i 0).val / 4000, ht⟩ (1 : Fin 2) * 128 + 128
    omega

/-- The result array after the stage: `lin0` of the arrays the stage found. -/
theorem final (c : Dev nD) :
    (dat0 V c).arrAt 3 cfg0.N = lin0 (V c main_arg0) (colOf 0 (V c main_v19)) (V c main_arg2) :=
  (dat0 V c).arrAt_eq_of_cover 3 _ (fun t _ => flushed_eq V c t) cover

end Cert.KernelIdeal.Stage0

end
-- ==== Proof.Stage1.lean ====
/-
  The second tiled stage as one function of whole arrays.  Over 25 blocks of 4000 consecutive rows it reads the
  aggregated features and the two-column array of degree factors by rows, the bias row and the weight matrix whole,
  and writes the same rows of its result.  An entry of `lin1` depends only on its own row of the row-indexed
  operands, so what block t writes is block t of `lin1` of the whole arrays; the blocks tile the rows, so the
  result array ends holding `lin1` of the arrays the stage found.
-/
import proofs.«107097_j87892210745352_2_alg».proof.Proof.Gen.KernelIdeal.Frame
import proofs.«107097_j87892210745352_2_alg».proof.Proof.Tiles
import Idealize.ShloMosaic.Lib.Pipeline.Value

set_option maxRecDepth 16384

noncomputable section

namespace Cert.KernelIdeal.Stage1

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem idx_w0 : ∀ t : Fin cfg1.N, win1_0.index t (0 : Fin 2) = t.val ∧ win1_0.index t (1 : Fin 2) = 0 :=
  (by decide +kernel : ∀ t : Fin grid1.N, _)
theorem idx_w1 : ∀ t : Fin cfg1.N, win1_1.index t (0 : Fin 2) = t.val ∧ win1_1.index t (1 : Fin 2) = 0 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = t.val ∧ win1_4.index t (1 : Fin 2) = 0 :=
  (by decide +kernel : ∀ t : Fin grid1.N, _)

/-- Row `p` of block `t`. -/
def row (t : Fin cfg1.N) (p : Fin 4000) : Fin 100000 :=
  ⟨t.val * 4000 + p.val, by have h : t.val < 25 := N_1 ▸ t.isLt; have := p.isLt; omega⟩

theorem emb_w0 (t : Fin cfg1.N) (p : Fin 4000) (k : Fin 128) :
    ((cfg1.win 0).blk t).view.emb (ix2 p k) = ix2 (row t p) k := by
  obtain ⟨e0, e1⟩ := idx_w0 t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega

theorem emb_w1 (t : Fin cfg1.N) (p : Fin 4000) (k : Fin 2) :
    ((cfg1.win 1).blk t).view.emb (ix2 p k) = ix2 (row t p) k := by
  obtain ⟨e0, e1⟩ := idx_w1 t
  funext a; apply Fin.ext
  match a with
  | ⟨0, _⟩ => show win1_1.index t (0 : Fin 2) * 4000 + 1 * p.val = t.val * 4000 + p.val; omega
  | ⟨1, _⟩ => show win1_1.index t (1 : Fin 2) * 2 + 1 * k.val = k.val; omega

theorem emb_w2 (t : Fin cfg1.N) (y : S1x128.Idx) : ((cfg1.win 2).blk t).view.emb y = y := by
  obtain ⟨e0, e1⟩ := idx_w2 t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- A window over a whole array: its block is the array. -/
theorem iblk_w2 (c : Dev nD) (t : Fin cfg1.N) : iblk1 V c 2 t = V c main_v32 := by
  funext y
  show V c main_v32 (((cfg1.win 2).blk t).view.emb y) = V c main_v32 y
  rw [emb_w2]

theorem emb_w3 (t : Fin cfg1.N) (y : S128x128.Idx) : ((cfg1.win 3).blk t).view.emb y = y := by
  obtain ⟨e0, e1⟩ := idx_w3 t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- A window over a whole array: its block is the array. -/
theorem iblk_w3 (c : Dev nD) (t : Fin cfg1.N) : iblk1 V c 3 t = V c main_arg4 := by
  funext y
  show V c main_arg4 (((cfg1.win 3).blk t).view.emb y) = V c main_arg4 y
  rw [emb_w3]

theorem emb_w4 (t : Fin cfg1.N) (p : Fin 4000) (k : Fin 128) :
    ((cfg1.win 4).blk t).view.emb (ix2 p k) = ix2 (row t p) k := by
  obtain ⟨e0, e1⟩ := idx_w4 t
  funext a; apply Fin.ext
  match a with
  | ⟨0, _⟩ => show win1_4.index t (0 : Fin 2) * 4000 + 1 * p.val = t.val * 4000 + p.val; omega
  | ⟨1, _⟩ => show win1_4.index t (1 : Fin 2) * 128 + 1 * k.val = k.val; omega

/-- What point `t` writes back is block `t` of `lin1` of the arrays the stage found. -/
theorem flushed_eq (c : Dev nD) (t : Fin cfg1.N) :
    (dat1 V c).flushed 4 t = ((cfg1.win 4).blk t).view.read (Elt Ideal)
      (lin1 (V c main_v31) (colOf 0 (V c main_v19)) (colOf 1 (V c main_v19)) (V c main_v32) (V c main_arg4)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x2) hz, View.ld_unit_zero (S := S128x128) hz,
    View.ld_unit_zero (S := S1x128) hz]
  rw [Cert.Tiles.tile1, iblk_w2, iblk_w3]
  funext j
  obtain ⟨p, q, rfl⟩ : ∃ (p : Fin 4000) (q : Fin 128), j = ix2 p q := ⟨j 0, j 1, eq_ix2 j⟩
  show lin1 (iblk1 V c 0 t) (colOf 0 (iblk1 V c 1 t)) (colOf 1 (iblk1 V c 1 t)) (V c main_v32) (V c main_arg4) (ix2 p q)
    = lin1 (V c main_v31) (colOf 0 (V c main_v19)) (colOf 1 (V c main_v19)) (V c main_v32) (V c main_arg4)
        (((cfg1.win 4).blk t).view.emb (ix2 p q))
  rw [emb_w4]
  refine lin1_rows _ _ _ _ _ _ _ _ p (row t p) q (fun k => ?_) ?_ ?_
  · show V c main_v31 (((cfg1.win 0).blk t).view.emb (ix2 p k)) = _
    rw [emb_w0]
  · show V c main_v19 (((cfg1.win 1).blk t).view.emb (ix2 p (0 : Fin 2))) = _
    rw [emb_w1]; rfl
  · show V c main_v19 (((cfg1.win 1).blk t).view.emb (ix2 p (1 : Fin 2))) = _
    rw [emb_w1]; rfl

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v33).slice (win1_4.rect t)).set ↔ _
  rw [View.set_slice_whole, Rect.mem_set_unit]
  exact Iff.rfl

/-- The 25 row blocks tile the result array: row r is in block r / 4000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨e0, e1⟩ := idx_w4 ⟨(i 0).val / 4000, ht⟩
  refine ⟨⟨(i 0).val / 4000, ht⟩, flush1_4 _, ?_⟩
  rw [mem_blk]
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    have e0' : win1_4.index ⟨(i 0).val / 4000, ht⟩ (0 : Fin 2) = (i 0).val / 4000 := e0
    omega
  | ⟨1, _⟩ =>
    show win1_4.index ⟨(i 0).val / 4000, ht⟩ (1 : Fin 2) * 128 ≤ (i 1).val
      ∧ (i 1).val < win1_4.index ⟨(i 0).val / 4000, ht⟩ (1 : Fin 2) * 128 + 128
    omega

/-- The result array after the stage: `lin1` of the arrays the stage found. -/
theorem final (c : Dev nD) :
    (dat1 V c).arrAt 4 cfg1.N
      = lin1 (V c main_v31) (colOf 0 (V c main_v19)) (colOf 1 (V c main_v19)) (V c main_v32) (V c main_arg4) :=
  (dat1 V c).arrAt_eq_of_cover 4 _ (fun t _ => flushed_eq V c t) cover

end Cert.KernelIdeal.Stage1

end
-- ==== Proof.Stage2.lean ====
/-
  The third tiled stage as one function of whole arrays.  Over 25 blocks of 4000 consecutive rows it reads the
  aggregated features and the two-column array of degree factors by rows, the two bias rows and the weight matrix
  whole, and writes the same rows of the program's result.  An entry of `lin2` depends only on its own row of the
  row-indexed operands, so what block t writes is block t of `lin2` of the whole arrays; the blocks tile the rows,
  so the result array ends holding `lin2` of the arrays the stage found.
-/
import proofs.«107097_j87892210745352_2_alg».proof.Proof.Gen.KernelIdeal.Frame
import proofs.«107097_j87892210745352_2_alg».proof.Proof.Tiles
import Idealize.ShloMosaic.Lib.Pipeline.Value

set_option maxRecDepth 16384

noncomputable section

namespace Cert.KernelIdeal.Stage2

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = t.val ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = 0 ∧ win2_3.index t (1 : Fin 2) = 0 :=
  (by decide +kernel : ∀ t : Fin grid2.N, _)
theorem idx_w4 : ∀ t : Fin cfg2.N, win2_4.index t (0 : Fin 2) = 0 ∧ win2_4.index t (1 : Fin 2) = 0 :=
  (by decide +kernel : ∀ t : Fin grid2.N, _)
theorem idx_w5 : ∀ t : Fin cfg2.N, win2_5.index t (0 : Fin 2) = t.val ∧ win2_5.index t (1 : Fin 2) = 0 :=
  (by decide +kernel : ∀ t : Fin grid2.N, _)

/-- Row `p` of block `t`. -/
def row (t : Fin cfg2.N) (p : Fin 4000) : Fin 100000 :=
  ⟨t.val * 4000 + p.val, by have h : t.val < 25 := N_2 ▸ t.isLt; have := p.isLt; omega⟩

theorem emb_w0 (t : Fin cfg2.N) (p : Fin 4000) (k : Fin 128) :
    ((cfg2.win 0).blk t).view.emb (ix2 p k) = ix2 (row t p) k := by
  obtain ⟨e0, e1⟩ := idx_w0 t
  funext a; apply Fin.ext
  match a with
  | ⟨0, _⟩ => show win2_0.index t (0 : Fin 2) * 4000 + 1 * p.val = t.val * 4000 + p.val; omega
  | ⟨1, _⟩ => show win2_0.index t (1 : Fin 2) * 128 + 1 * k.val = k.val; omega

theorem emb_w1 (t : Fin cfg2.N) (p : Fin 4000) (k : Fin 2) :
    ((cfg2.win 1).blk t).view.emb (ix2 p k) = ix2 (row t p) k := by
  obtain ⟨e0, e1⟩ := idx_w1 t
  funext a; apply Fin.ext
  match a with
  | ⟨0, _⟩ => show win2_1.index t (0 : Fin 2) * 4000 + 1 * p.val = t.val * 4000 + p.val; omega
  | ⟨1, _⟩ => show win2_1.index t (1 : Fin 2) * 2 + 1 * k.val = k.val; omega

theorem emb_w2 (t : Fin cfg2.N) (y : S1x128.Idx) : ((cfg2.win 2).blk t).view.emb y = y := by
  obtain ⟨e0, e1⟩ := idx_w2 t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- A window over a whole array: its block is the array. -/
theorem iblk_w2 (c : Dev nD) (t : Fin cfg2.N) : iblk2 V c 2 t = V c main_v45 := by
  funext y
  show V c main_v45 (((cfg2.win 2).blk t).view.emb y) = V c main_v45 y
  rw [emb_w2]

theorem emb_w3 (t : Fin cfg2.N) (y : S128x40.Idx) : ((cfg2.win 3).blk t).view.emb y = y := by
  obtain ⟨e0, e1⟩ := idx_w3 t
  funext a; apply Fin.ext
  match a with
  | ⟨0, _⟩ => show win2_3.index t (0 : Fin 2) * 128 + 1 * (y 0).val = (y 0).val; omega
  | ⟨1, _⟩ => show win2_3.index t (1 : Fin 2) * 40 + 1 * (y 1).val = (y 1).val; omega

/-- A window over a whole array: its block is the array. -/
theorem iblk_w3 (c : Dev nD) (t : Fin cfg2.N) : iblk2 V c 3 t = V c main_arg6 := by
  funext y
  show V c main_arg6 (((cfg2.win 3).blk t).view.emb y) = V c main_arg6 y
  rw [emb_w3]

theorem emb_w4 (t : Fin cfg2.N) (y : S1x40.Idx) : ((cfg2.win 4).blk t).view.emb y = y := by
  obtain ⟨e0, e1⟩ := idx_w4 t
  funext a; apply Fin.ext
  match a with
  | ⟨0, _⟩ => show win2_4.index t (0 : Fin 2) * 1 + 1 * (y 0).val = (y 0).val; omega
  | ⟨1, _⟩ => show win2_4.index t (1 : Fin 2) * 40 + 1 * (y 1).val = (y 1).val; omega

/-- A window over a whole array: its block is the array. -/
theorem iblk_w4 (c : Dev nD) (t : Fin cfg2.N) : iblk2 V c 4 t = V c main_v46 := by
  funext y
  show V c main_v46 (((cfg2.win 4).blk t).view.emb y) = V c main_v46 y
  rw [emb_w4]

theorem emb_w5 (t : Fin cfg2.N) (p : Fin 4000) (k : Fin 40) :
    ((cfg2.win 5).blk t).view.emb (ix2 p k) = ix2 (row t p) k := by
  obtain ⟨e0, e1⟩ := idx_w5 t
  funext a; apply Fin.ext
  match a with
  | ⟨0, _⟩ => show win2_5.index t (0 : Fin 2) * 4000 + 1 * p.val = t.val * 4000 + p.val; omega
  | ⟨1, _⟩ => show win2_5.index t (1 : Fin 2) * 40 + 1 * k.val = k.val; omega

/-- What point `t` writes back is block `t` of `lin2` of the arrays the stage found. -/
theorem flushed_eq (c : Dev nD) (t : Fin cfg2.N) :
    (dat2 V c).flushed 5 t = ((cfg2.win 5).blk t).view.read (Elt Ideal)
      (lin2 (V c main_v44) (colOf 1 (V c main_v19)) (V c main_v45) (V c main_arg6) (V c main_v46)) := by
  show (cfg2.win 5).cut (grid2.coords t) ((dat2 V c).after 5 t) = _
  rw [after2_5]
  unfold out2_5
  rw [View.canon_unit_zero hz]
  simp only [View.ld_unit_zero (S := S4000x128) hz, View.ld_unit_zero (S := S4000x2) hz, View.ld_unit_zero (S := S128x40) hz,
    View.ld_unit_zero (S := S1x128) hz, View.ld_unit_zero (S := S1x40) hz]
  rw [Cert.Tiles.tile2, iblk_w2, iblk_w3, iblk_w4]
  funext j
  obtain ⟨p, q, rfl⟩ : ∃ (p : Fin 4000) (q : Fin 40), j = ix2 p q := ⟨j 0, j 1, eq_ix2 j⟩
  show lin2 (iblk2 V c 0 t) (colOf 1 (iblk2 V c 1 t)) (V c main_v45) (V c main_arg6) (V c main_v46) (ix2 p q)
    = lin2 (V c main_v44) (colOf 1 (V c main_v19)) (V c main_v45) (V c main_arg6) (V c main_v46)
        (((cfg2.win 5).blk t).view.emb (ix2 p q))
  rw [emb_w5]
  refine lin2_rows _ _ _ _ _ _ _ p (row t p) q (fun k => ?_) ?_
  · show V c main_v44 (((cfg2.win 0).blk t).view.emb (ix2 p k)) = _
    rw [emb_w0]
  · show V c main_v19 (((cfg2.win 1).blk t).view.emb (ix2 p (1 : Fin 2))) = _
    rw [emb_w1]; rfl

/-- An index of the result array is in point `t`'s block iff each coordinate is in the block's range on its axis. -/
theorem mem_blk (t : Fin cfg2.N) (i : S100000x40.Idx) :
    i ∈ ((cfg2.win 5).blk t).view.set ↔ ∀ a : Fin 2, win2_5.index t a * S4000x40.size a ≤ (i a).val
      ∧ (i a).val < win2_5.index t a * S4000x40.size a + S4000x40.size a := by
  show i ∈ ((View.whole main_v47).slice (win2_5.rect t)).set ↔ _
  rw [View.set_slice_whole, Rect.mem_set_unit]
  exact Iff.rfl

/-- The 25 row blocks tile the result array: row r is in block r / 4000. -/
theorem cover (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 25 := N_2
  have ht : (i 0).val / 4000 < cfg2.N := by rw [hN]; omega
  obtain ⟨e0, e1⟩ := idx_w5 ⟨(i 0).val / 4000, ht⟩
  refine ⟨⟨(i 0).val / 4000, ht⟩, flush2_5 _, ?_⟩
  rw [mem_blk]
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    have e0' : win2_5.index ⟨(i 0).val / 4000, ht⟩ (0 : Fin 2) = (i 0).val / 4000 := e0
    omega
  | ⟨1, _⟩ =>
    show win2_5.index ⟨(i 0).val / 4000, ht⟩ (1 : Fin 2) * 40 ≤ (i 1).val
      ∧ (i 1).val < win2_5.index ⟨(i 0).val / 4000, ht⟩ (1 : Fin 2) * 40 + 40
    omega

/-- The result array after the stage: `lin2` of the arrays the stage found. -/
theorem final (c : Dev nD) :
    (dat2 V c).arrAt 5 cfg2.N
      = lin2 (V c main_v44) (colOf 1 (V c main_v19)) (V c main_v45) (V c main_arg6) (V c main_v46) :=
  (dat2 V c).arrAt_eq_of_cover 5 _ (fun t _ => flushed_eq V c t) cover

end Cert.KernelIdeal.Stage2

end
-- ==== Proof.KHost.lean ====
/-
  The whole-array pieces of the tiled program that are computed outside its three tiled stages, as functions of the
  edge list `e` (row 0 the edges' sources, row 1 their destinations):

  * `src e`, `dst e` : the two rows of the edge list as vectors;
  * `cNO e`, `cNI e` : per node, the reciprocal square root of its out- / in-degree clamped below at one (the degree
    a scatter-add of ones along the sources / destinations), as one-column arrays;
  * `nrm e`          : those two columns side by side, the two-column array the tiled stages read;
  * `agg e h`        : the rows of `h` gathered along the edges' sources (a negative row number wrapped once) and
    summed into the edges' destinations.
-/
import proofs.«107097_j87892210745352_2_alg».proof.KernelIdeal
import proofs.«107097_j87892210745352_2_alg».proof.Proof.Gen.KernelIdeal
import Idealize.ShloMosaic.PureOps.Ideal

noncomputable section

namespace Cert.KernelIdeal.Host

open Cert.KernelIdeal Idealize.ShloMosaic
open Facts₀

/-- The edges' sources. -/
def src (e : IVec S2x1600000 32) : IVec S1600000 32 :=
  shapeCast S1600000 (extractStridedSlice S1x1600000 ![0, 0] e slices_S2x1600000_S1x1600000_0_0) shapeCasts_S1x1600000_S1600000
/-- The edges' destinations. -/
def dst (e : IVec S2x1600000 32) : IVec S1600000 32 :=
  shapeCast S1600000 (extractStridedSlice S1x1600000 ![1, 0] e slices_S2x1600000_S1x1600000_1_0) shapeCasts_S1x1600000_S1600000

/-- One per edge. -/
def ones : FVec Ideal S1600000 .f32 :=
  broadcastInDim S1600000 ![] bcast_S_S1600000 (constant (F := Ideal) S_ .f32 0x3F800000#32)

/-- The count of `rows` at each node, clamped below at one, to the power −1/2. -/
def rnorm (rows : IVec S1600000 32) : FVec Ideal S100000 .f32 :=
  Host.rsqrt (maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 rows) ones)
    (broadcastInDim S100000 ![] bcast_S_S100000 (constant (F := Ideal) S_ .f32 0x3F800000#32)))

/-- The out-degree factor, one column. -/
def cNO (e : IVec S2x1600000 32) : FVec Ideal S100000x1 .f32 :=
  broadcastInDim S100000x1 ![0] bcast_S100000_S100000x1_0 (rnorm (src e))
/-- The in-degree factor, one column. -/
def cNI (e : IVec S2x1600000 32) : FVec Ideal S100000x1 .f32 :=
  broadcastInDim S100000x1 ![0] bcast_S100000_S100000x1_0 (rnorm (dst e))

/-- The two factors side by side. -/
def nrm (e : IVec S2x1600000 32) : FVec Ideal S100000x2 .f32 :=
  concatenate S100000x2 1 [⟨S100000x1, cNO e⟩, ⟨S100000x1, cNI e⟩] concatenates_S100000x1_S100000x1_S100000x2_d1

/-- The row numbers the gather reads: the sources, a negative one wrapped once. -/
def gidx (e : IVec S2x1600000 32) : IVec S1600000x1 32 :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The row numbers the scatter-add writes: the destinations. -/
def sidx (e : IVec S2x1600000 32) : IVec S1600000x1 32 :=
  broadcastInDim S1600000x1 ![0] bcast_S1600000_S1600000x1_0 (dst e)

/-- Rows gathered along the sources and summed into the destinations; the rows are held in the narrower float
    format and widened after the gather, which changes nothing over the extended reals. -/
def agg (e : IVec S2x1600000 32) (h : FVec Ideal S100000x128 .bf16) : FVec Ideal S100000x128 .f32 :=
  Host.scatterAdd scatter_S100000x128_S1600000x1_S1600000x128_1_0_0_1
    (broadcastInDim S100000x128 ![] bcast_S_S100000x128 (constant (F := Ideal) S_ .f32 0x00000000#32))
    (sidx e)
    (extf .f32 (Host.gather gather_S100000x128_S1600000x1_S1600000x128_1_0_n_n_0_1_1128 h (gidx e)) bitsLt_bf16_f32)

end Cert.KernelIdeal.Host

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.Chain.lean ====
/-
  The contents of the tiled program's buffers at each boundary between a stretch of whole-array operations and a
  tiled stage, read back to the program's arguments: the degree factors and the edge rows computed before the first
  stage stay in place to the end; each stage's result array is the stage's function (`lin0`, `lin1`, `lin2`) of
  what it found; the aggregation between two stages is `agg` of the earlier stage's result.  Together: the result
  array ends holding `net` of the arguments.
-/
import proofs.«107097_j87892210745352_2_alg».proof.Proof.Gen.KernelIdeal.Frame
import proofs.«107097_j87892210745352_2_alg».proof.Proof.Stage0
import proofs.«107097_j87892210745352_2_alg».proof.Proof.Stage1
import proofs.«107097_j87892210745352_2_alg».proof.Proof.Stage2
import proofs.«107097_j87892210745352_2_alg».proof.Proof.KHost
import proofs.«107097_j87892210745352_2_alg».proof.Proof.LibKeeps
import proofs.«107097_j87892210745352_2_alg».proof.Proof.LibConcatCols

set_option maxRecDepth 16384

noncomputable section

namespace Cert.KernelIdeal.Chain

open Cert.KernelIdeal Cert.KernelIdeal.Gen Cert.KernelIdeal.Host Cert.Layers
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- The edge list as launched. -/
abbrev edges (c : Dev nD) : IVec S2x1600000 32 := m ((c : Thread nD τ).loc main_arg1)

/-! ## Before the first stage -/

theorem W1_v1 (c : Dev nD) : (W1 m ρ c (Proc.devRef .tc main_v1) : IVec S1600000 32) = src (edges m c) := by
  show StableHlo.after hostOps0 (W0 m ρ c) (Proc.devRef .tc main_v1) = _
  after_results
  rfl

theorem W1_v3 (c : Dev nD) : (W1 m ρ c (Proc.devRef .tc main_v3) : IVec S1600000 32) = dst (edges m c) := by
  show StableHlo.after hostOps0 (W0 m ρ c) (Proc.devRef .tc main_v3) = _
  after_results
  rfl

theorem W1_v19 (c : Dev nD) : (W1 m ρ c (Proc.devRef .tc main_v19) : FVec Ideal S100000x2 .f32) = nrm (edges m c) := by
  show StableHlo.after hostOps0 (W0 m ρ c) (Proc.devRef .tc main_v19) = _
  after_results
  rfl

theorem W1_arg (c : Dev nD) (b : Ref sig .tc)
    (h : StableHlo.after hostOps0 (W0 m ρ c) (Proc.devRef .tc b) = W0 m ρ c (Proc.devRef .tc b)) :
    W1 m ρ c (Proc.devRef .tc b) = m ((c : Thread nD τ).loc b) := h.trans rfl

theorem W1_arg0 (c : Dev nD) : W1 m ρ c (Proc.devRef .tc main_arg0) = m ((c : Thread nD τ).loc main_arg0) :=
  W1_arg m ρ c main_arg0 (by keeps_host hostOps0)
theorem W1_arg2 (c : Dev nD) : W1 m ρ c (Proc.devRef .tc main_arg2) = m ((c : Thread nD τ).loc main_arg2) :=
  W1_arg m ρ c main_arg2 (by keeps_host hostOps0)
theorem W1_arg3 (c : Dev nD) : W1 m ρ c (Proc.devRef .tc main_arg3) = m ((c : Thread nD τ).loc main_arg3) :=
  W1_arg m ρ c main_arg3 (by keeps_host hostOps0)
theorem W1_arg4 (c : Dev nD) : W1 m ρ c (Proc.devRef .tc main_arg4) = m ((c : Thread nD τ).loc main_arg4) :=
  W1_arg m ρ c main_arg4 (by keeps_host hostOps0)
theorem W1_arg5 (c : Dev nD) : W1 m ρ c (Proc.devRef .tc main_arg5) = m ((c : Thread nD τ).loc main_arg5) :=
  W1_arg m ρ c main_arg5 (by keeps_host hostOps0)
theorem W1_arg6 (c : Dev nD) : W1 m ρ c (Proc.devRef .tc main_arg6) = m ((c : Thread nD τ).loc main_arg6) :=
  W1_arg m ρ c main_arg6 (by keeps_host hostOps0)
theorem W1_arg7 (c : Dev nD) : W1 m ρ c (Proc.devRef .tc main_arg7) = m ((c : Thread nD τ).loc main_arg7) :=
  W1_arg m ρ c main_arg7 (by keeps_host hostOps0)

/-- The two columns of the degree factors read back out of the two-column array. -/
theorem col0_nrm (e : IVec S2x1600000 32) : colOf 0 (nrm e) = cNO e := by
  funext i
  obtain ⟨r, u, rfl⟩ : ∃ (r : Fin 100000) (u : Fin 1), i = ix2 r u := ⟨i 0, i 1, eq_ix2 i⟩
  have hu : u = 0 := Subsingleton.elim _ _
  subst hu
  exact Cert.LibConcatCols.concat_cols_left (cNO e) (cNI e) Facts₀.concatenates_S100000x1_S100000x1_S100000x2_d1 r (0 : Fin 1) (0 : Fin 2) rfl

theorem col1_nrm (e : IVec S2x1600000 32) : colOf 1 (nrm e) = cNI e := by
  funext i
  obtain ⟨r, u, rfl⟩ : ∃ (r : Fin 100000) (u : Fin 1), i = ix2 r u := ⟨i 0, i 1, eq_ix2 i⟩
  have hu : u = 0 := Subsingleton.elim _ _
  subst hu
  exact Cert.LibConcatCols.concat_cols_right (cNO e) (cNI e) Facts₀.concatenates_S100000x1_S100000x1_S100000x2_d1 r (0 : Fin 1) (1 : Fin 2) rfl

/-! ## After the first stage -/

theorem W2_v20 (c : Dev nD) :
    W2 m ρ c (Proc.devRef .tc main_v20)
      = lin0 (m ((c : Thread nD τ).loc main_arg0)) (cNO (edges m c)) (m ((c : Thread nD τ).loc main_arg2)) := by
  refine (W2_arr m ρ c 3).trans ((Stage0.final (V1 m ρ) c).trans ?_)
  show lin0 (W1 m ρ c (Proc.devRef .tc main_arg0)) (colOf 0 (W1 m ρ c (Proc.devRef .tc main_v19)))
    (W1 m ρ c (Proc.devRef .tc main_arg2)) = _
  rw [W1_arg0, W1_arg2, W1_v19, col0_nrm]

theorem W2_v19 (c : Dev nD) : (W2 m ρ c (Proc.devRef .tc main_v19) : FVec Ideal S100000x2 .f32) = nrm (edges m c) :=
  ((W2_arr m ρ c 1).trans (((dat0 (V1 m ρ) c).arrAt_in 1 rfl _).trans (A_eq0 (V1 m ρ) c 1))).trans (W1_v19 m ρ c)

theorem W2_v1 (c : Dev nD) : (W2 m ρ c (Proc.devRef .tc main_v1) : IVec S1600000 32) = src (edges m c) :=
  (W2_of_ne m ρ c main_v1 (by decide)).trans (W1_v1 m ρ c)
theorem W2_v3 (c : Dev nD) : (W2 m ρ c (Proc.devRef .tc main_v3) : IVec S1600000 32) = dst (edges m c) :=
  (W2_of_ne m ρ c main_v3 (by decide)).trans (W1_v3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## Before the second stage -/

theorem W3_v31 (c : Dev nD) :
    W3 m ρ c (Proc.devRef .tc main_v31) = agg (edges m c) (W2 m ρ c (Proc.devRef .tc main_v20)) := by
  show StableHlo.after hostOps1 (W2 m ρ c) (Proc.devRef .tc main_v31) = _
  after_results
  rw [W2_v1, W2_v3]
  rfl

theorem W3_v32 (c : Dev nD) :
    W3 m ρ c (Proc.devRef .tc main_v32)
      = shapeCast S1x128 (m ((c : Thread nD τ).loc main_arg3)) Facts₀.shapeCasts_S128_S1x128 := by
  show StableHlo.after hostOps1 (W2 m ρ c) (Proc.devRef .tc main_v32) = _
  after_results
  rw [W2_arg3]
  rfl

theorem W3_v19 (c : Dev nD) : (W3 m ρ c (Proc.devRef .tc main_v19) : FVec Ideal S100000x2 .f32) = nrm (edges m c) :=
  (show StableHlo.after hostOps1 (W2 m ρ c) (Proc.devRef .tc main_v19) = W2 m ρ c (Proc.devRef .tc main_v19) by keeps_host hostOps1).trans (W2_v19 m ρ c)
theorem W3_v1 (c : Dev nD) : (W3 m ρ c (Proc.devRef .tc main_v1) : IVec S1600000 32) = src (edges m c) :=
  (show StableHlo.after hostOps1 (W2 m ρ c) (Proc.devRef .tc main_v1) = W2 m ρ c (Proc.devRef .tc main_v1) by keeps_host hostOps1).trans (W2_v1 m ρ c)
theorem W3_v3 (c : Dev nD) : (W3 m ρ c (Proc.devRef .tc main_v3) : IVec S1600000 32) = dst (edges m c) :=
  (show StableHlo.after hostOps1 (W2 m ρ c) (Proc.devRef .tc main_v3) = W2 m ρ c (Proc.devRef .tc main_v3) by keeps_host hostOps1).trans (W2_v3 m ρ c)
theorem W3_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by keeps_host hostOps1).trans (W2_arg4 m ρ c)
theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by keeps_host hostOps1).trans (W2_arg5 m ρ c)
theorem W3_arg6 (c : Dev nD) : W3 m ρ c (Proc.devRef .tc main_arg6) = m ((c : Thread nD τ).loc main_arg6) :=
  (show StableHlo.after hostOps1 (W2 m ρ c) (Proc.devRef .tc main_arg6) = W2 m ρ c (Proc.devRef .tc main_arg6) by keeps_host hostOps1).trans (W2_arg6 m ρ c)
theorem W3_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) by keeps_host hostOps1).trans (W2_arg7 m ρ c)

/-! ## After the second stage -/

theorem W4_v33 (c : Dev nD) :
    W4 m ρ c (Proc.devRef .tc main_v33)
      = lin1 (agg (edges m c) (W2 m ρ c (Proc.devRef .tc main_v20))) (cNO (edges m c)) (cNI (edges m c))
          (shapeCast S1x128 (m ((c : Thread nD τ).loc main_arg3)) Facts₀.shapeCasts_S128_S1x128)
          (m ((c : Thread nD τ).loc main_arg4)) := by
  refine (W4_arr m ρ c 4).trans ((Stage1.final (V3 m ρ) c).trans ?_)
  show lin1 (W3 m ρ c (Proc.devRef .tc main_v31)) (colOf 0 (W3 m ρ c (Proc.devRef .tc main_v19)))
    (colOf 1 (W3 m ρ c (Proc.devRef .tc main_v19))) (W3 m ρ c (Proc.devRef .tc main_v32))
    (W3 m ρ c (Proc.devRef .tc main_arg4)) = _
  rw [W3_v31, W3_v19, W3_v32, W3_arg4, col0_nrm, col1_nrm]

theorem W4_v19 (c : Dev nD) : (W4 m ρ c (Proc.devRef .tc main_v19) : FVec Ideal S100000x2 .f32) = nrm (edges m c) :=
  ((W4_arr m ρ c 1).trans (((dat1 (V3 m ρ) c).arrAt_in 1 rfl _).trans (A_eq1 (V3 m ρ) c 1))).trans (W3_v19 m ρ c)
theorem W4_v1 (c : Dev nD) : (W4 m ρ c (Proc.devRef .tc main_v1) : IVec S1600000 32) = src (edges m c) :=
  (W4_of_ne m ρ c main_v1 (by decide)).trans (W3_v1 m ρ c)
theorem W4_v3 (c : Dev nD) : (W4 m ρ c (Proc.devRef .tc main_v3) : IVec S1600000 32) = dst (edges m c) :=
  (W4_of_ne m ρ c main_v3 (by decide)).trans (W3_v3 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## Before the third stage -/

theorem W5_v44 (c : Dev nD) :
    W5 m ρ c (Proc.devRef .tc main_v44) = agg (edges m c) (W4 m ρ c (Proc.devRef .tc main_v33)) := by
  show StableHlo.after hostOps2 (W4 m ρ c) (Proc.devRef .tc main_v44) = _
  after_results
  rw [W4_v1, W4_v3]
  rfl

theorem W5_v45 (c : Dev nD) :
    W5 m ρ c (Proc.devRef .tc main_v45)
      = shapeCast S1x128 (m ((c : Thread nD τ).loc main_arg5)) Facts₀.shapeCasts_S128_S1x128 := by
  show StableHlo.after hostOps2 (W4 m ρ c) (Proc.devRef .tc main_v45) = _
  after_results
  rw [W4_arg5]
  rfl

theorem W5_v46 (c : Dev nD) :
    W5 m ρ c (Proc.devRef .tc main_v46)
      = shapeCast S1x40 (m ((c : Thread nD τ).loc main_arg7)) Facts₀.shapeCasts_S40_S1x40 := by
  show StableHlo.after hostOps2 (W4 m ρ c) (Proc.devRef .tc main_v46) = _
  after_results
  rw [W4_arg7]
  rfl

theorem W5_v19 (c : Dev nD) : (W5 m ρ c (Proc.devRef .tc main_v19) : FVec Ideal S100000x2 .f32) = nrm (edges m c) :=
  (show StableHlo.after hostOps2 (W4 m ρ c) (Proc.devRef .tc main_v19) = W4 m ρ c (Proc.devRef .tc main_v19) by keeps_host hostOps2).trans (W4_v19 m ρ c)
theorem W5_arg6 (c : Dev nD) : W5 m ρ c (Proc.devRef .tc main_arg6) = m ((c : Thread nD τ).loc main_arg6) :=
  (show StableHlo.after hostOps2 (W4 m ρ c) (Proc.devRef .tc main_arg6) = W4 m ρ c (Proc.devRef .tc main_arg6) by keeps_host hostOps2).trans (W4_arg6 m ρ c)

/-! ## The result -/

/-- The result array at the end of the run is `net` of the arguments. -/
theorem result (c : Dev nD) :
    W6 m ρ c (Proc.devRef .tc main_v47)
      = net (agg (edges m c)) (cNO (edges m c)) (cNI (edges m c))
          (m ((c : Thread nD τ).loc main_arg0)) (m ((c : Thread nD τ).loc main_arg2))
          (shapeCast S1x128 (m ((c : Thread nD τ).loc main_arg3)) Facts₀.shapeCasts_S128_S1x128)
          (m ((c : Thread nD τ).loc main_arg4))
          (shapeCast S1x128 (m ((c : Thread nD τ).loc main_arg5)) Facts₀.shapeCasts_S128_S1x128)
          (m ((c : Thread nD τ).loc main_arg6))
          (shapeCast S1x40 (m ((c : Thread nD τ).loc main_arg7)) Facts₀.shapeCasts_S40_S1x40) := by
  refine (W6_arr m ρ c 5).trans ((Stage2.final (V5 m ρ) c).trans ?_)
  show lin2 (W5 m ρ c (Proc.devRef .tc main_v44)) (colOf 1 (W5 m ρ c (Proc.devRef .tc main_v19)))
    (W5 m ρ c (Proc.devRef .tc main_v45)) (W5 m ρ c (Proc.devRef .tc main_arg6))
    (W5 m ρ c (Proc.devRef .tc main_v46)) = _
  rw [W5_v44, W5_v19, W5_v45, W5_arg6, W5_v46, col1_nrm, W4_v33, W2_v20]
  rfl

end Cert.KernelIdeal.Chain

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.RefNet.lean ====
/-
  The plain program, stage by stage, is `net`.  Its dense stages are whole-array operations: a product with a
  one-column array spread along the lanes scales the rows; a sum with a vector spread to one row and down the rows
  adds a bias row (the vector cast to a row is the same row); a maximum with a spread zero clamps; a dot_general with
  one contracted axis is the matrix product.  Read at an entry these are `lin0`, `lin1` and `lin2`.  The gather and
  scatter-add between two dense stages are kept as the opaque function `agg` of the rows, and the degree factors as
  the opaque columns `cNO`, `cNI`; the program names a few arrays twice, and each pair is one term.
-/
import proofs.«107097_j87892210745352_2_alg».proof.Proof.Gen.ReferenceIdeal.Read
import proofs.«107097_j87892210745352_2_alg».proof.Proof.Layers
import proofs.«107097_j87892210745352_2_alg».proof.Proof.LibPlainDot
import proofs.«107097_j87892210745352_2_alg».proof.Proof.LibJoinedRows
import proofs.«107097_j87892210745352_2_alg».proof.Proof.LibRowBcast
import proofs.«107097_j87892210745352_2_alg».proof.Proof.LibRowLayout
import proofs.«107097_j87892210745352_2_alg».proof.Proof.LibKeepdims
import Idealize.ShloMosaic.Lib.ValueLayout

noncomputable section

namespace Cert.RefNet

open Idealize.ShloMosaic Idealize.ShloMosaic.ValueIdx Cert.ReferenceIdeal Cert.ReferenceIdeal.Gen Cert.ReferenceIdeal.Read Cert.Layers
open scoped BigOperators

/-- The reciprocal square root of the clamped out-degree, one column. -/
def cNO (e : IVec S2x1600000 32) : FVec Ideal S100000x1 .f32 := val_main_v17 (F := Ideal) e
/-- The reciprocal square root of the clamped in-degree, one column. -/
def cNI (e : IVec S2x1600000 32) : FVec Ideal S100000x1 .f32 := val_main_v31 (F := Ideal) e
/-- Rows gathered along the edges' sources and summed into the edges' destinations. -/
def agg (e : IVec S2x1600000 32) (h : FVec Ideal S100000x128 .f32) : FVec Ideal S100000x128 .f32 :=
  Host.scatterAdd scatter_S100000x128_S1600000x1_S1600000x128_1_0_0_1 (val_main_v28 (F := Ideal)) (val_main_v29 (F := Ideal) e)
    (Host.gather gather_S100000x128_S1600000x1_S1600000x128_1_0_n_n_0_1_1128 h (val_main_v26 (F := Ideal) e))

section Stages

open Cert.LibPlainDot Cert.LibJoinedRows Cert.LibRowBcast Cert.LibRowLayout

/-- The two contraction records of the program are plain matrix products. -/
theorem plain128 : Plain (A := 100000) (K := 128) (B := 128) dot_S100000x128_S128x128_S100000x128_1_0_0_1_n_n :=
  ⟨rfl, rfl, rfl, rfl, rfl, rfl⟩
theorem plain40 : Plain (A := 100000) (K := 128) (B := 40) dot_S100000x128_S128x40_S100000x40_1_0_0_1_n_n :=
  ⟨rfl, rfl, rfl, rfl, rfl, rfl⟩

/-- Rows scaled by a column spread along the lanes, then the matrix product: the first dense stage. -/
theorem stage0 (x : FVec Ideal S100000x128 .f32) (no : FVec Ideal S100000x1 .f32) (w : FVec Ideal S128x128 .f32) :
    Host.dotGeneral dot_S100000x128_S128x128_S100000x128_1_0_0_1_n_n none
      (mulf x (broadcastInDim S100000x128 ![0, 1] bcast_S100000x1_S100000x128_0_1 no)) w = lin0 x no w := by
  funext i
  obtain ⟨r, c, rfl⟩ : ∃ (r : Fin 100000) (c : Fin 128), i = ix2 r c := ⟨i 0, i 1, eq_ix2 i⟩
  simp only [Host.dotGeneral]
  rw [lin0_apply]
  refine (plain128.dotGeneral_apply none _ _ w r c).trans ?_
  refine Finset.sum_congr rfl fun k _ => ?_
  rw [mulf_apply, bcast_col_rows_apply]

/-- Scale by the in-degree column, add the bias row, clamp at zero, scale by the out-degree column, multiply:
    the second dense stage. -/
theorem stage1 (hc128 : S128.ShapeCasts S1x128) (a : FVec Ideal S100000x128 .f32) (no ni : FVec Ideal S100000x1 .f32)
    (b : FVec Ideal S128 .f32) (w : FVec Ideal S128x128 .f32) :
    Host.dotGeneral dot_S100000x128_S128x128_S100000x128_1_0_0_1_n_n none
      (mulf (maximumf (addf (mulf a (broadcastInDim S100000x128 ![0, 1] bcast_S100000x1_S100000x128_0_1 ni))
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32)))
        (broadcastInDim S100000x128 ![0, 1] bcast_S100000x1_S100000x128_0_1 no)) w
      = lin1 a no ni (shapeCast S1x128 b hc128) w := by
  funext i
  obtain ⟨r, c, rfl⟩ : ∃ (r : Fin 100000) (c : Fin 128), i = ix2 r c := ⟨i 0, i 1, eq_ix2 i⟩
  simp only [Host.dotGeneral]
  rw [lin1_apply]
  refine (plain128.dotGeneral_apply none _ _ w r c).trans ?_
  refine Finset.sum_congr rfl fun k _ => ?_
  rw [mulf_apply, maximumf_apply, addf_apply, mulf_apply, bcast_col_rows_apply, bcast_col_rows_apply,
    bcast_vec_rows_apply, bcast_scalar_apply, constant_apply, shapeCast_b_1b_apply]

/-- Scale by the in-degree column, add the bias row, multiply, add the second bias row: the last dense stage. -/
theorem stage2 (hc128 : S128.ShapeCasts S1x128) (hc40 : S40.ShapeCasts S1x40) (a : FVec Ideal S100000x128 .f32)
    (ni : FVec Ideal S100000x1 .f32) (b : FVec Ideal S128 .f32) (w : FVec Ideal S128x40 .f32) (bf : FVec Ideal S40 .f32) :
    addf (Host.dotGeneral dot_S100000x128_S128x40_S100000x40_1_0_0_1_n_n none
      (addf (mulf a (broadcastInDim S100000x128 ![0, 1] bcast_S100000x1_S100000x128_0_1 ni))
        (broadcastInDim S100000x128 ![0, 1] bcast_S1x128_S100000x128_0_1 (broadcastInDim S1x128 ![1] bcast_S128_S1x128_1 b))) w)
      (broadcastInDim S100000x40 ![0, 1] bcast_S1x40_S100000x40_0_1 (broadcastInDim S1x40 ![1] bcast_S40_S1x40_1 bf))
      = lin2 a ni (shapeCast S1x128 b hc128) w (shapeCast S1x40 bf hc40) := by
  funext i
  obtain ⟨r, c, rfl⟩ : ∃ (r : Fin 100000) (c : Fin 40), i = ix2 r c := ⟨i 0, i 1, eq_ix2 i⟩
  rw [lin2_apply, addf_apply, bcast_vec_rows_apply, shapeCast_b_1b_apply]
  refine congrArg (· + bf (ix1 c)) ?_
  simp only [Host.dotGeneral]
  refine (plain40.dotGeneral_apply none _ _ w r c).trans ?_
  refine Finset.sum_congr rfl fun k _ => ?_
  rw [addf_apply, mulf_apply, bcast_col_rows_apply, bcast_vec_rows_apply, shapeCast_b_1b_apply]

end Stages

/-! The program names some arrays twice; each pair is one term. -/
theorem v38_eq (e : IVec S2x1600000 32) : val_main_v38 (F := Ideal) e = val_main_v17 (F := Ideal) e := rfl
theorem v52_eq (e : IVec S2x1600000 32) : val_main_v52 (F := Ideal) e = val_main_v31 (F := Ideal) e := rfl
theorem v47_eq (e : IVec S2x1600000 32) : val_main_v47 (F := Ideal) e = val_main_v26 (F := Ideal) e := rfl
theorem v50_eq (e : IVec S2x1600000 32) : val_main_v50 (F := Ideal) e = val_main_v29 (F := Ideal) e := rfl
theorem v49_eq : val_main_v49 (F := Ideal) = val_main_v28 (F := Ideal) := rfl

/-- The first dense stage of the program. -/
theorem v20_eq (x0 : FVec Ideal S100000x128 .f32) (e : IVec S2x1600000 32) (x2 : FVec Ideal S128x128 .f32) :
    val_main_v20 (F := Ideal) x0 e x2 = lin0 x0 (cNO e) x2 := by
  unfold val_main_v20 val_main_v19 val_main_v18 cNO
  exact stage0 x0 _ x2

/-- Its aggregation. -/
theorem v30_eq (x0 : FVec Ideal S100000x128 .f32) (e : IVec S2x1600000 32) (x2 : FVec Ideal S128x128 .f32) :
    val_main_v30 (F := Ideal) x0 e x2 = agg e (lin0 x0 (cNO e) x2) := by
  unfold val_main_v30 val_main_v27 agg
  rw [v20_eq]

/-- The second dense stage of the program. -/
theorem v41_eq (hc128 : S128.ShapeCasts S1x128) (x0 : FVec Ideal S100000x128 .f32) (e : IVec S2x1600000 32)
    (x2 : FVec Ideal S128x128 .f32) (x3 : FVec Ideal S128 .f32) (x4 : FVec Ideal S128x128 .f32) :
    val_main_v41 (F := Ideal) x0 e x2 x3 x4
      = lin1 (agg e (lin0 x0 (cNO e) x2)) (cNO e) (cNI e) (shapeCast S1x128 x3 hc128) x4 := by
  unfold val_main_v41 val_main_v40 val_main_v39 val_main_v37 val_main_v36 val_main_v35 val_main_v34 val_main_v33
    val_main_v32 val_main_call0_v0 val_main_call0_cst
  rw [v30_eq, v38_eq]
  exact stage1 hc128 _ (cNO e) (cNI e) x3 x4

/-- Its aggregation. -/
theorem v51_eq (hc128 : S128.ShapeCasts S1x128) (x0 : FVec Ideal S100000x128 .f32) (e : IVec S2x1600000 32)
    (x2 : FVec Ideal S128x128 .f32) (x3 : FVec Ideal S128 .f32) (x4 : FVec Ideal S128x128 .f32) :
    val_main_v51 (F := Ideal) x0 e x2 x3 x4
      = agg e (lin1 (agg e (lin0 x0 (cNO e) x2)) (cNO e) (cNI e) (shapeCast S1x128 x3 hc128) x4) := by
  unfold val_main_v51 val_main_v48 agg
  rw [v41_eq hc128, v49_eq, v50_eq, v47_eq]
  rfl

theorem ref_eq_net (hc128 : S128.ShapeCasts S1x128) (hc40 : S40.ShapeCasts S1x40)
    (x0 : FVec Ideal S100000x128 .f32) (e : IVec S2x1600000 32) (x2 : FVec Ideal S128x128 .f32) (x3 : FVec Ideal S128 .f32)
    (x4 : FVec Ideal S128x128 .f32) (x5 : FVec Ideal S128 .f32) (x6 : FVec Ideal S128x40 .f32) (x7 : FVec Ideal S40 .f32) :
    val_main_v61 (F := Ideal) x0 e x2 x3 x4 x5 x6 x7
      = net (agg e) (cNO e) (cNI e) x0 x2 (shapeCast S1x128 x3 hc128) x4 (shapeCast S1x128 x5 hc128) x6
          (shapeCast S1x40 x7 hc40) := by
  unfold val_main_v61 val_main_v60 val_main_v59 val_main_v58 val_main_v57 val_main_v56 val_main_v55 val_main_v54
    val_main_v53 net
  rw [v51_eq hc128, v52_eq]
  exact stage2 hc128 hc40 _ (cNI e) x5 x6 x7

end Cert.RefNet

end
-- ==== Proof.Bridge.lean ====
/-
  The whole-array pieces outside the dense stages are the same functions of the edge list in the two programs: the
  tiled program and the plain one apply the same operations, in the same order, to the same rows of the edge list;
  the tiled program additionally holds the gathered rows in the narrower float format and widens them after the
  gather, which is the identity over the extended reals.
-/
import proofs.«107097_j87892210745352_2_alg».proof.Proof.KHost
import proofs.«107097_j87892210745352_2_alg».proof.Proof.RefNet

noncomputable section

namespace Cert.Bridge

open Idealize.ShloMosaic

/-! The dimension records of the two programs carry the same lists. -/
theorem sc1_eq : Cert.KernelIdeal.scatter_S100000_S1600000x1_S1600000_n_0_0_1 = Cert.ReferenceIdeal.scatter_S100000_S1600000x1_S1600000_n_0_0_1 := rfl
theorem sc2_eq : Cert.KernelIdeal.scatter_S100000x128_S1600000x1_S1600000x128_1_0_0_1
    = Cert.ReferenceIdeal.scatter_S100000x128_S1600000x1_S1600000x128_1_0_0_1 := rfl
theorem ga_eq : Cert.KernelIdeal.gather_S100000x128_S1600000x1_S1600000x128_1_0_n_n_0_1_1128
    = Cert.ReferenceIdeal.gather_S100000x128_S1600000x1_S1600000x128_1_0_n_n_0_1_1128 := rfl

open Cert.ReferenceIdeal.Read in
/-- The two rows of the edge list, and the array of ones. -/
theorem src_eq (e : IVec Cert.KernelIdeal.S2x1600000 32) : Cert.KernelIdeal.Host.src e = val_main_v1 (F := Ideal) e := rfl
open Cert.ReferenceIdeal.Read in
theorem dst_eq (e : IVec Cert.KernelIdeal.S2x1600000 32) : Cert.KernelIdeal.Host.dst e = val_main_v3 (F := Ideal) e := rfl
open Cert.ReferenceIdeal.Read in
theorem ones_eq : Cert.KernelIdeal.Host.ones = val_main_v4 (F := Ideal) := rfl

open Cert.ReferenceIdeal.Read in
/-- The clamped degree to the power −1/2, along the sources and along the destinations. -/
theorem rnorm_src (e : IVec Cert.KernelIdeal.S2x1600000 32) : Cert.KernelIdeal.Host.rnorm (Cert.KernelIdeal.Host.src e) = val_main_v15 (F := Ideal) e := by
  unfold Cert.KernelIdeal.Host.rnorm val_main_v15 val_main_v9 val_main_v8 val_main_v7 val_main_v6 val_main_v5 val_main_cst_0 val_main_cst_1
  rw [sc1_eq, src_eq, ones_eq]
open Cert.ReferenceIdeal.Read in
theorem rnorm_dst (e : IVec Cert.KernelIdeal.S2x1600000 32) : Cert.KernelIdeal.Host.rnorm (Cert.KernelIdeal.Host.dst e) = val_main_v16 (F := Ideal) e := by
  unfold Cert.KernelIdeal.Host.rnorm val_main_v16 val_main_v14 val_main_v13 val_main_v12 val_main_v11 val_main_v10 val_main_cst_2 val_main_cst_3
  rw [sc1_eq, dst_eq, ones_eq]

open Cert.ReferenceIdeal.Read in
/-- The row numbers the gather reads and the scatter-add writes. -/
theorem gidx_eq (e : IVec Cert.KernelIdeal.S2x1600000 32) : Cert.KernelIdeal.Host.gidx e = val_main_v26 (F := Ideal) e := by
  unfold Cert.KernelIdeal.Host.gidx val_main_v26 val_main_v25 val_main_v24 val_main_v23 val_main_v22 val_main_v21 val_main_c val_main_c_4
  rw [src_eq]
open Cert.ReferenceIdeal.Read in
theorem sidx_eq (e : IVec Cert.KernelIdeal.S2x1600000 32) : Cert.KernelIdeal.Host.sidx e = val_main_v29 (F := Ideal) e := by
  unfold Cert.KernelIdeal.Host.sidx val_main_v29
  rw [dst_eq]

theorem cNO_eq (e : IVec Cert.KernelIdeal.S2x1600000 32) : Cert.KernelIdeal.Host.cNO e = Cert.RefNet.cNO e := by
  unfold Cert.KernelIdeal.Host.cNO Cert.RefNet.cNO Cert.ReferenceIdeal.Read.val_main_v17
  rw [rnorm_src]

theorem cNI_eq (e : IVec Cert.KernelIdeal.S2x1600000 32) : Cert.KernelIdeal.Host.cNI e = Cert.RefNet.cNI e := by
  unfold Cert.KernelIdeal.Host.cNI Cert.RefNet.cNI Cert.ReferenceIdeal.Read.val_main_v31
  rw [rnorm_dst]

theorem agg_eq (e : IVec Cert.KernelIdeal.S2x1600000 32) (h : FVec Ideal Cert.KernelIdeal.S100000x128 .f32) :
    Cert.KernelIdeal.Host.agg e h = Cert.RefNet.agg e h := by
  unfold Cert.KernelIdeal.Host.agg Cert.RefNet.agg Cert.ReferenceIdeal.Read.val_main_v28 Cert.ReferenceIdeal.Read.val_main_cst_5
  rw [sc2_eq, ga_eq, sidx_eq, gidx_eq]
  rfl

end Cert.Bridge

end
-- ==== Proof.lean ====
/-
  The certificate of a tiled two-layer graph convolution with a final linear layer against its plain reference.

  Both programs compute, over the extended reals,
      out = lin2 (agg (lin1 (agg (lin0 x no W1)) no ni b1 W2)) ni b2 Wfc bfc
  where `no`, `ni` are the reciprocal square roots of the clamped out- and in-degrees, `agg` gathers rows along the
  edges' sources and sums them into the edges' destinations, and `lin0`, `lin1`, `lin2` are the three dense stages
  (rows scaled, bias added, maximum with zero, matrix product: Proof/Layers.lean).  The two programs apply the same
  operations to the same entries in the same order, so no law of arithmetic is needed and the inputs' finiteness is
  never used; what differs is the arrangement: the tiled program computes each dense stage over 25 blocks of 4000
  rows, holds the two degree factors side by side in one two-column array, and holds the stages' results in a
  narrower float format (the identity over the extended reals).

  * Proof/Tiles.lean        — one block of each tiled stage is the stage's function of the block's rows;
  * Proof/Stage0..2.lean    — the blocks tile the rows: each stage's result array is the stage's function of the arrays;
  * Proof/KHost.lean, Chain.lean — the whole-array operations between the stages, and the buffers' contents at each
    boundary read back to the arguments: the tiled program's result is `net` of its arguments;
  * Proof/KernelRun.lean    — the tiled program's run, with its result named;
  * Proof/RefNet.lean       — the plain program's result is `net` of its arguments;
  * Proof/Bridge.lean       — the pieces outside the dense stages are the same functions in the two programs.

  The three frames are the generated ones (the plain program's is its generated run with the result dropped); the
  idealization rewrote nothing, so `preserves` is trivial.
-/
import proofs.«107097_j87892210745352_2_alg».proof.Defs
import proofs.«107097_j87892210745352_2_alg».proof.Proof.Gen.Kernel
import proofs.«107097_j87892210745352_2_alg».proof.Proof.Gen.Kernel.Frame
import proofs.«107097_j87892210745352_2_alg».proof.Proof.Gen.KernelIdeal
import proofs.«107097_j87892210745352_2_alg».proof.Proof.Gen.KernelIdeal.Frame
import proofs.«107097_j87892210745352_2_alg».proof.Proof.Gen.ReferenceIdeal
import proofs.«107097_j87892210745352_2_alg».proof.Proof.Gen.ReferenceIdeal.Run
import proofs.«107097_j87892210745352_2_alg».proof.Proof.Gen.ReferenceIdeal.Read
import proofs.«107097_j87892210745352_2_alg».proof.Proof.Gen.Pre_finite_inputs
import proofs.«107097_j87892210745352_2_alg».proof.Proof.KernelRun
import proofs.«107097_j87892210745352_2_alg».proof.Proof.Chain
import proofs.«107097_j87892210745352_2_alg».proof.Proof.RefNet
import proofs.«107097_j87892210745352_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at `net` of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v47),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  refine Eq.trans ?_ (Cert.KernelIdeal.Chain.result m ρ c).symm
  rw [Cert.ReferenceIdeal.Read.val_main_v61_eq, h0, h1, h2, h3, h4, h5, h6, h7,
    Cert.RefNet.ref_eq_net Cert.KernelIdeal.Facts₀.shapeCasts_S128_S1x128 Cert.KernelIdeal.Facts₀.shapeCasts_S40_S1x40,
    ← Cert.Bridge.cNO_eq, ← Cert.Bridge.cNI_eq,
    show Cert.RefNet.agg (m ((c : Thread Cert.KernelIdeal.nD Cert.KernelIdeal.τ).loc Cert.KernelIdeal.main_arg1))
        = Cert.KernelIdeal.Host.agg (m ((c : Thread Cert.KernelIdeal.nD Cert.KernelIdeal.τ).loc Cert.KernelIdeal.main_arg1))
      from funext fun h => (Cert.Bridge.agg_eq _ h).symm]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
